-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S4x40000x2 : Shape := ⟨3, ![4, 40000, 2]⟩
abbrev S4x512x512 : Shape := ⟨3, ![4, 512, 512]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S50000x512 .f32) (main_arg1 : IVec S4x40000x2 32) (main_arg2 : FVec F S4x512x512 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S4x512x512 .f32 := Host.absf main_arg2
  let main_cst_0 : FVec F S_ .f32 := constant S_ .f32 0x7F800000#32
  let main_v5 : FVec F S4x512x512 .f32 := broadcastInDim S4x512x512 ![] bcast_S_S4x512x512 main_cst_0
  let main_v6 : IVec S4x512x512 1 := cmpf .olt main_v4 main_v5
  let main_c_1 : IVec S_ 1 := constantI S_ 1 1#1
  let main_v7 : IVec S_ 1 := (fun x v => Host.reduce IntOp.andi x v reducesTo_S4x512x512_S_d0_1_2 h_S_) main_v6 main_c_1
  let main_v8 : IVec S_ 1 := andi main_v3 main_v7
  main_v8
-- ==== Kernel.lean ====
abbrev S50000x512 : Shape := ⟨2, ![50000, 512]⟩
abbrev S4x40000x2 : Shape := ⟨3, ![4, 40000, 2]⟩
abbrev S4x512x512 : Shape := ⟨3, ![4, 512, 512]⟩
abbrev S4x40000x1 : Shape := ⟨3, ![4, 40000, 1]⟩
abbrev S4x40000 : Shape := ⟨2, ![4, 40000]⟩
abbrev S_ : Shape := ⟨0, ![]⟩
abbrev S4x40000x512 : Shape := ⟨3, ![4, 40000, 512]⟩
abbrev S1x2000x512 : Shape := ⟨3, ![1, 2000, 512]⟩
abbrev S1x512x512 : Shape := ⟨3, ![1, 512, 512]⟩
abbrev S2000x512 : Shape := ⟨2, ![2000, 512]⟩
abbrev S512x512 : Shape := ⟨2, ![512, 512]⟩
abbrev S160000x512 : Shape := ⟨2, ![160000, 512]⟩
abbrev S160000 : Shape := ⟨1, ![160000]⟩
abbrev S160000x1 : Shape := ⟨2, ![160000, 1]⟩

abbrev nBuf : Space → Nat
  | .hbm => 28
  | .vmem => 6
  | .smem => 0
  | _ => 0

abbrev bufTy : (tb : Table) → Fin (tcTables nBuf tb) → BufTy
  | .hbm, ⟨0, _⟩ => ⟨S50000x512, .f32⟩
  | .hbm, ⟨1, _⟩ => ⟨S4x40000x2, .i32⟩
  | .hbm, ⟨2, _⟩ => ⟨S4x512x512, .f32⟩
  | .hbm, ⟨3, _⟩ => ⟨S4x40000x1, .i32⟩
  | .hbm, ⟨4, _⟩ => ⟨S4x40000, .i32⟩
  | .hbm, ⟨5, _⟩ => ⟨S4x40000x1, .i32⟩
  | .hbm, ⟨6, _⟩ => ⟨S4x40000, .i32⟩
  | .hbm, ⟨7, _⟩ => ⟨S50000x512, .bf16⟩
  | .hbm, ⟨8, _⟩ => ⟨S_, .i32⟩
  | .hbm, ⟨9, _⟩ => ⟨S4x40000, .i32⟩
  | .hbm, ⟨10, _⟩ => ⟨S4x40000, .i1⟩
  | .hbm, ⟨11, _⟩ => ⟨S_, .i32⟩
  | .hbm, ⟨12, _⟩ => ⟨S4x40000, .i32⟩
  | .hbm, ⟨13, _⟩ => ⟨S4x40000, .i32⟩
  | .hbm, ⟨14, _⟩ => ⟨S4x40000, .i32⟩
  | .hbm, ⟨15, _⟩ => ⟨S4x40000x1, .i32⟩
  | .hbm, ⟨16, _⟩ => ⟨S4x40000x512, .bf16⟩
  | .hbm, ⟨17, _⟩ => ⟨S4x512x512, .bf16⟩
  | .hbm, ⟨18, _⟩ => ⟨S4x40000x512, .f32⟩
  | .hbm, ⟨19, _⟩ => ⟨S160000x512, .f32⟩
  | .hbm, ⟨20, _⟩ => ⟨S160000, .i32⟩
  | .hbm, ⟨21, _⟩ => ⟨S_, .f32⟩
  | .hbm, ⟨22, _⟩ => ⟨S50000x512, .f32⟩
  | .hbm, ⟨23, _⟩ => ⟨S160000x1, .i32⟩
  | .hbm, ⟨24, _⟩ => ⟨S50000x512, .f32⟩
  | .hbm, ⟨25, _⟩ => ⟨S_, .f32⟩
  | .hbm, ⟨26, _⟩ => ⟨S50000x512, .f32⟩
  | .hbm, ⟨27, _⟩ => ⟨S50000x512, .f32⟩
  | .local _ .vmem, ⟨0, _⟩ => ⟨S1x2000x512, .bf16⟩
  | .local _ .vmem, ⟨1, _⟩ => ⟨S1x2000x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x2000x512, .f32⟩
  | .local _ .vmem, ⟨5, _⟩ => ⟨S1x2000x512, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_call0_cst : Ref sig .tc := ⟨.hbm, 25, rfl⟩
abbrev main_call0_v0 : Ref sig .tc := ⟨.hbm, 26, rfl⟩
abbrev main_v19 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 20], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S4x40000x2_S4x40000x1_0_0_0 : S4x40000x2.Slices ![0, 0, 0] S4x40000x1
  shapeCasts_S4x40000x1_S4x40000 : S4x40000x1.ShapeCasts S4x40000
  slices_S4x40000x2_S4x40000x1_0_0_1 : S4x40000x2.Slices ![0, 0, 1] S4x40000x1
  bitsLt_bf16_f32 : FTy.bits .bf16 < FTy.bits .f32
  bcast_S_S4x40000 : S_.BroadcastsInDim S4x40000 (![] : Fin 0 → Fin S4x40000.rank)
  bcast_S4x40000_S4x40000x1_0_1 : S4x40000.BroadcastsInDim S4x40000x1 (![0, 1] : Fin 2 → Fin S4x40000x1.rank)
  inb_S1x2000x512_S1x2000x512_0_0_0 : ∀ a, (![0, 0, 0] : Fin 3 → Nat) a + S1x2000x512.size a ≤ S1x2000x512.size a
  h_S1x2000x512 : 0 < S1x2000x512.numel
  shapeCasts_S1x2000x512_S2000x512 : S1x2000x512.ShapeCasts S2000x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S2000x512_S1x2000x512 : S2000x512.ShapeCasts S1x2000x512
  shapeCasts_S4x40000x512_S160000x512 : S4x40000x512.ShapeCasts S160000x512
  shapeCasts_S4x40000_S160000 : S4x40000.ShapeCasts S160000
  bcast_S_S50000x512 : S_.BroadcastsInDim S50000x512 (![] : Fin 0 → Fin S50000x512.rank)
  bcast_S160000_S160000x1_0 : S160000.BroadcastsInDim S160000x1 (![0] : Fin 1 → Fin S160000x1.rank)
  gather_S50000x512_S4x40000x1_S4x40000x512_2_0_n_n_0_2_1512_wf : GatherDims.WF S50000x512 S4x40000x1 S4x40000x512 [2] [0] [] [0] [] 2 ![1, 512]
  dot_S2000x512_S512x512_S2000x512_1_0_0_1_n_n_wf : DotDims.WF S2000x512 S512x512 S2000x512 [1] [0] [0] [1] [] []
  scatter_S50000x512_S160000x1_S160000x512_1_0_0_1_wf : ScatterDims.WF S50000x512 S160000x1 S160000x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2000x512.size a ≤ S4x40000x512.size a
  hwx0_0 : ∀ i : grid0.Coords, EltTy.bits .bf16 = 32 ∨ (Rect.block (s := S4x40000x512) S1x2000x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S4x512x512.size a
  hwx0_1 : ∀ i : grid0.Coords, EltTy.bits .bf16 = 32 ∨ (Rect.block (s := S4x512x512) S1x512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2000x512.size a ≤ S4x40000x512.size a
  hwx0_2 : ∀ i : grid0.Coords, EltTy.bits .f32 = 32 ∨ (Rect.block (s := S4x40000x512) S1x2000x512.size (cc0_transform_2 i) (hinb0_2 i)).WholeWords (EltTy.packing .f32)

variable [Facts₀]

def gather_S50000x512_S4x40000x1_S4x40000x512_2_0_n_n_0_2_1512 : GatherDims S50000x512 S4x40000x1 S4x40000x512 where
  offsetDims := [2]
  collapsedSliceDims := [0]
  operandBatchingDims := []
  startIndicesBatchingDims := []
  startIndexMap := [0]
  indexVectorDim := 2
  sliceSizes := ![1, 512]
  wf := gather_S50000x512_S4x40000x1_S4x40000x512_2_0_n_n_0_2_1512_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf

abbrev win0_0 : Pipeline.Window sig grid0 :=
  Pipeline.Window.ofSpec (Memref.whole main_v11) S1x2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x2000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S4x40000x2 : Shape := ⟨3, ![4, 40000, 2]⟩
abbrev S4x512x512 : Shape := ⟨3, ![4, 512, 512]⟩
abbrev S4x40000x1 : Shape := ⟨3, ![4, 40000, 1]⟩
abbrev S4x40000 : Shape := ⟨2, ![4, 40000]⟩
abbrev S_ : Shape := ⟨0, ![]⟩
abbrev S4x40000x512 : Shape := ⟨3, ![4, 40000, 512]⟩
abbrev S160000x512 : Shape := ⟨2, ![160000, 512]⟩
abbrev S160000 : Shape := ⟨1, ![160000]⟩
abbrev S160000x1 : Shape := ⟨2, ![160000, 1]⟩

abbrev nBuf : Space → Nat
  | .hbm => 26
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S4x40000x2, .i32⟩
  | .hbm, ⟨2, _⟩ => ⟨S4x512x512, .f32⟩
  | .hbm, ⟨3, _⟩ => ⟨S4x40000x1, .i32⟩
  | .hbm, ⟨4, _⟩ => ⟨S4x40000, .i32⟩
  | .hbm, ⟨5, _⟩ => ⟨S4x40000x1, .i32⟩
  | .hbm, ⟨6, _⟩ => ⟨S4x40000, .i32⟩
  | .hbm, ⟨7, _⟩ => ⟨S_, .i32⟩
  | .hbm, ⟨8, _⟩ => ⟨S4x40000, .i32⟩
  | .hbm, ⟨9, _⟩ => ⟨S4x40000, .i1⟩
  | .hbm, ⟨10, _⟩ => ⟨S_, .i32⟩
  | .hbm, ⟨11, _⟩ => ⟨S4x40000, .i32⟩
  | .hbm, ⟨12, _⟩ => ⟨S4x40000, .i32⟩
  | .hbm, ⟨13, _⟩ => ⟨S4x40000, .i32⟩
  | .hbm, ⟨14, _⟩ => ⟨S4x40000x1, .i32⟩
  | .hbm, ⟨15, _⟩ => ⟨S4x40000x512, .f32⟩
  | .hbm, ⟨16, _⟩ => ⟨S4x40000x512, .f32⟩
  | .hbm, ⟨17, _⟩ => ⟨S160000x512, .f32⟩
  | .hbm, ⟨18, _⟩ => ⟨S160000, .i32⟩
  | .hbm, ⟨19, _⟩ => ⟨S_, .f32⟩
  | .hbm, ⟨20, _⟩ => ⟨S50000x512, .f32⟩
  | .hbm, ⟨21, _⟩ => ⟨S160000x1, .i32⟩
  | .hbm, ⟨22, _⟩ => ⟨S50000x512, .f32⟩
  | .hbm, ⟨23, _⟩ => ⟨S_, .f32⟩
  | .hbm, ⟨24, _⟩ => ⟨S50000x512, .f32⟩
  | .hbm, ⟨25, _⟩ => ⟨S50000x512, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_call0_cst : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  slices_S4x40000x2_S4x40000x1_0_0_0 : S4x40000x2.Slices ![0, 0, 0] S4x40000x1
  shapeCasts_S4x40000x1_S4x40000 : S4x40000x1.ShapeCasts S4x40000
  slices_S4x40000x2_S4x40000x1_0_0_1 : S4x40000x2.Slices ![0, 0, 1] S4x40000x1
  bcast_S_S4x40000 : S_.BroadcastsInDim S4x40000 (![] : Fin 0 → Fin S4x40000.rank)
  bcast_S4x40000_S4x40000x1_0_1 : S4x40000.BroadcastsInDim S4x40000x1 (![0, 1] : Fin 2 → Fin S4x40000x1.rank)
  shapeCasts_S4x40000x512_S160000x512 : S4x40000x512.ShapeCasts S160000x512
  shapeCasts_S4x40000_S160000 : S4x40000.ShapeCasts S160000
  bcast_S_S50000x512 : S_.BroadcastsInDim S50000x512 (![] : Fin 0 → Fin S50000x512.rank)
  bcast_S160000_S160000x1_0 : S160000.BroadcastsInDim S160000x1 (![0] : Fin 1 → Fin S160000x1.rank)
  gather_S50000x512_S4x40000x1_S4x40000x512_2_0_n_n_0_2_1512_wf : GatherDims.WF S50000x512 S4x40000x1 S4x40000x512 [2] [0] [] [0] [] 2 ![1, 512]
  dot_S4x40000x512_S4x512x512_S4x40000x512_2_1_1_2_0_0_wf : DotDims.WF S4x40000x512 S4x512x512 S4x40000x512 [2] [1] [1] [2] [0] [0]
  scatter_S50000x512_S160000x1_S160000x512_1_0_0_1_wf : ScatterDims.WF S50000x512 S160000x1 S160000x512 [1] [0] [0] 1

variable [Facts₀]

def gather_S50000x512_S4x40000x1_S4x40000x512_2_0_n_n_0_2_1512 : GatherDims S50000x512 S4x40000x1 S4x40000x512 where
  offsetDims := [2]
  collapsedSliceDims := [0]
  operandBatchingDims := []
  startIndicesBatchingDims := []
  startIndexMap := [0]
  indexVectorDim := 2
  sliceSizes := ![1, 512]
  wf := gather_S50000x512_S4x40000x1_S4x40000x512_2_0_n_n_0_2_1512_wf
def dot_S4x40000x512_S4x512x512_S4x40000x512_2_1_1_2_0_0 : DotDims S4x40000x512 S4x512x512 S4x40000x512 where
  lhsContracting := [2]
  rhsContracting := [1]
  lhsNonContracting := [1]
  rhsNonContracting := [2]
  lhsBatch := [0]
  rhsBatch := [0]
  wf := dot_S4x40000x512_S4x512x512_S4x40000x512_2_1_1_2_0_0_wf
def scatter_S50000x512_S160000x1_S160000x512_1_0_0_1 : ScatterDims S50000x512 S160000x1 S160000x512 where
  updateWindowDims := [1]
  insertedWindowDims := [0]
  scatterDimsToOperandDims := [0]
  indexVectorDim := 1
  wf := scatter_S50000x512_S160000x1_S160000x512_1_0_0_1_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«174354_j7507602833984_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.Tile.lean ====
/-
  One grid point's product. The body multiplies a tile of 2000 gathered source rows, held as a [1, 2000, 512]
  block, with one edge type's [1, 512, 512] weight block: it drops the unit axis of both, accumulates the plain
  product into a zero splat, and puts the unit axis back. Over the extended reals the stored entry (0, p, q) is
  therefore the sum over k of the row tile at (0, p, k) times the weight block at (0, k, q).
-/
import proofs.«174354_j7507602833984_2_alg».proof.Proof.Gen.KernelIdeal.Skeleton
import proofs.«174354_j7507602833984_2_alg».proof.Proof.LibDense

noncomputable section

namespace Cert.KernelIdeal.Tile

open Cert.KernelIdeal Cert.KernelIdeal.Gen Idealize.ShloMosaic Idealize.ShloMosaic.ValueIdx Cert.DenseLib

/-- The body's contraction is the plain rows-by-columns one. -/
theorem dims_plain : dot_S2000x512_S512x512_S2000x512_1_0_0_1_n_n = DotDims.plain 2000 512 512 := rfl

/-- A rank-two index behind a leading unit coordinate is the rank-three index with that coordinate zero. -/
theorem cons_zero {a b : ℕ} (p : Fin a) (q : Fin b) :
    (Fin.cons ⟨0, Nat.one_pos⟩ (ix2 p q) : (⟨3, ![1, a, b]⟩ : Shape).Idx) = ix3 (0 : Fin 1) p q :=
  funext fun c => by
    match c with
    | ⟨0, _⟩ => rfl
    | ⟨1, _⟩ => rfl
    | ⟨2, _⟩ => rfl

/-- The trailing two coordinates of (u, p, q) are (p, q). -/
theorem tail_ix3 {a b : ℕ} (u : Fin 1) (p : Fin a) (q : Fin b) :
    (fun c : Fin 2 => (ix3 u p q : (⟨3, ![1, a, b]⟩ : Shape).Idx) c.succ) = ix2 p q :=
  funext fun c => by
    match c with
    | ⟨0, _⟩ => rfl
    | ⟨1, _⟩ => rfl

/-- THE STORED TILE AT AN ENTRY: the sum over the shared axis of row-tile entry times weight entry. -/
theorem pay_apply (X0 : Vec Ideal S1x2000x512 .bf16) (X1 : Vec Ideal S1x512x512 .bf16)
    (u : Fin 1) (p : Fin 2000) (q : Fin 512) :
    k0_pay1 (F := Ideal) X0 X1 (ix3 u p q) = ∑ k : Fin 512, X0 (ix3 (0 : Fin 1) p k) * X1 (ix3 (0 : Fin 1) k q) := by
  unfold k0_pay1
  refine (shapeCast_addUnit_apply (n := 2) (![2000, 512]) _ _ (ix3 u p q)).trans ?_
  rw [tail_ix3 u p q, matmul_eq_mm _ dims_plain, mm_apply]
  refine Finset.sum_congr rfl fun k _ => ?_
  rw [shapeCast_dropUnit_apply (n := 2) (![2000, 512]) X0 _ (ix2 p k),
    shapeCast_dropUnit_apply (n := 2) (![512, 512]) X1 _ (ix2 k q), cons_zero, cons_zero]

end Cert.KernelIdeal.Tile

end
-- ==== Proof.Found.lean ====
/-
  What the region finds in its two input arrays. The host lines before the launch gather, for every edge type and
  edge, the source node's row of the embedding table (the source index read from the adjacency array, a negative one
  wrapped once by the table's height), and convert table and weights to a narrower float format. Over the extended
  reals a change of format is the identity, so the first input array is exactly the gathered rows the reference forms
  from the same two arguments, and the second is the weight argument itself.
-/
import proofs.«174354_j7507602833984_2_alg».proof.Proof.Gen.KernelIdeal.Frame
import proofs.«174354_j7507602833984_2_alg».proof.Proof.Gen.ReferenceIdeal.Read
import Idealize.ShloMosaic.Lib.StableHlo.Run

noncomputable section

namespace Cert.KernelIdeal.Found

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The first input array holds the reference's gathered source rows. -/
theorem rows (c : Dev nD) :
    (V m c main_v11 : S4x40000x512.Idx → EReal)
      = Cert.ReferenceIdeal.Read.val_main_v10 (F := Ideal) (m ((c : Thread nD τ).loc main_arg0)) (m ((c : Thread nD τ).loc main_arg1)) := by
  show StableHlo.after hostOps0 (fun b => m (c, b)) (Proc.devRef .tc main_v11) = _
  after_results
  rfl

/-- The second input array holds the weights as launched. -/
theorem weights (c : Dev nD) :
    (V m c main_v12 : S4x512x512.Idx → EReal) = m ((c : Thread nD τ).loc main_arg2) := by
  show StableHlo.after hostOps0 (fun b => m (c, b)) (Proc.devRef .tc main_v12) = _
  after_results
  rfl

/-- The flattened target indices the lines after the region read were formed before it, from the adjacency array. -/
theorem targets (c : Dev nD) :
    (V m c main_v3 : S4x40000.Idx → BitVec 32)
      = Cert.ReferenceIdeal.Read.val_main_v3 (F := Ideal) (m ((c : Thread nD τ).loc main_arg1)) := by
  show StableHlo.after hostOps0 (fun b => m (c, b)) (Proc.devRef .tc main_v3) = _
  after_results
  rfl

end Cert.KernelIdeal.Found

end
-- ==== Proof.Messages.lean ====
/-
  From tiles to the array of messages. Grid point (l, e) stores, into rows 2000·e … 2000·e + 1999 of plane l of the
  result array, the product of that tile of plane l's gathered source rows with edge type l's weight matrix. The
  reference's batched contraction at (l, r, h) is the sum over k of the gathered row (l, r, k) times the weight
  (l, k, h): the same sum, because the row tile's entry (0, p, k) is the gathered array's entry (l, 2000·e + p, k) and
  the weight block's entry (0, k, q) is the weight array's entry (l, k, q). The 4 × 20 tiles cover the array, so after
  the region the result array is the reference's array of messages.
-/
import proofs.«174354_j7507602833984_2_alg».proof.Proof.Tile
import proofs.«174354_j7507602833984_2_alg».proof.Proof.Found
import Idealize.ShloMosaic.Lib.Pipeline.Value

set_option maxRecDepth 16384

noncomputable section

namespace Cert.KernelIdeal.Messages

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-- The messages as the reference forms them from the three arguments: per edge type, gathered rows times weights. -/
abbrev msgs (c : Dev nD) : S4x40000x512.Idx → EReal :=
  Cert.ReferenceIdeal.Read.val_main_v11 (F := Ideal) (m ((c : Thread nD τ).loc main_arg0))
    (m ((c : Thread nD τ).loc main_arg1)) (m ((c : Thread nD τ).loc main_arg2))

theorem origin : (![0, 0, 0] : Fin 3 → Nat) = fun _ => 0 := funext fun a => by fin_cases a <;> rfl

/-- The three index maps over the grid: the row tile and the result tile move together, the weight block follows the
    edge type only, and nothing moves along the last axis. -/
theorem index_maps : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 3
    ∧ win0_2.index t (1 : Fin 3) ≤ 19 :=
  (by decide +kernel : ∀ t : Fin grid0.N, _)

/-- Every (edge type, tile) pair is some grid point's. -/
theorem tiles_onto : ∀ (l : Fin 4) (e : Fin 20), ∃ t : Fin cfg0.N, win0_2.index t = ![l.val, e.val, 0] :=
  (by decide +kernel : ∀ (l : Fin 4) (e : Fin 20), ∃ t : Fin grid0.N, win0_2.index t = ![l.val, e.val, 0])

/-- WHAT GRID POINT t WRITES BACK is its tile of the reference's messages. -/
theorem flushed_eq (c : Dev nD) (t : Fin cfg0.N) :
    (dats m 0 c).flushed 2 t = ((cfg0.win 2).blk t).view.read (Elt Ideal) (msgs m c) := by
  show (cfg0.win 2).cut (grid0.coords t) ((dats m 0 c).after 2 t) = _
  rw [after0_2]
  unfold out0_2
  rw [View.canon_unit_zero origin]
  simp only [View.ld_unit_zero (S := S1x2000x512) origin, View.ld_unit_zero (S := S1x512x512) origin]
  obtain ⟨e0, e1, e2, e3, e4, e5, e6, b0, b1⟩ := index_maps t
  refine funext fun (j : S1x2000x512.Idx) => ?_
  have hj0 : (j 0).val < 1 := (j 0).isLt
  have hj1 : (j 1).val < 2000 := (j 1).isLt
  have hj2 : (j 2).val < 512 := (j 2).isLt
  show k0_pay1 (F := Ideal) (iblk m c 0 t) (iblk m c 1 t) j = msgs m c (((cfg0.win 2).blk t).view.emb j)
  refine ((congrArg (k0_pay1 (F := Ideal) (iblk m c 0 t) (iblk m c 1 t)) (eq_ix3 j)).trans
    (Tile.pay_apply (iblk m c 0 t) (iblk m c 1 t) (j 0) (j 1) (j 2))).trans ?_
  refine Eq.trans ?_ (Cert.ReferenceIdeal.Read.val_main_v11_apply _ _ _ _).symm
  refine Finset.sum_congr rfl fun k _ => ?_
  have hk : k.val < 512 := k.isLt
  refine congrArg₂ (· * ·) ?_ ?_
  · show V m c main_v11 (((cfg0.win 0).blk t).view.emb (ix3 (0 : Fin 1) (j 1) k)) = _
    refine (congrFun (Found.rows m c) _).trans (congrArg _ (funext fun a => Fin.ext ?_))
    match a with
    | ⟨0, _⟩ =>
      show win0_0.index t (0 : Fin 3) * 1 + 1 * 0 = win0_2.index t (0 : Fin 3) * 1 + 1 * (j 0).val
      omega
    | ⟨1, _⟩ =>
      show win0_0.index t (1 : Fin 3) * 2000 + 1 * (j 1).val = win0_2.index t (1 : Fin 3) * 2000 + 1 * (j 1).val
      omega
    | ⟨2, _⟩ =>
      show win0_0.index t (2 : Fin 3) * 512 + 1 * k.val = k.val
      omega
  · show V m c main_v12 (((cfg0.win 1).blk t).view.emb (ix3 (0 : Fin 1) k (j 2))) = _
    refine (congrFun (Found.weights m c) _).trans (congrArg _ (funext fun a => Fin.ext ?_))
    match a with
    | ⟨0, _⟩ =>
      show win0_1.index t (0 : Fin 3) * 1 + 1 * 0 = win0_2.index t (0 : Fin 3) * 1 + 1 * (j 0).val
      omega
    | ⟨1, _⟩ =>
      show win0_1.index t (1 : Fin 3) * 512 + 1 * k.val = k.val
      omega
    | ⟨2, _⟩ =>
      show win0_1.index t (2 : Fin 3) * 512 + 1 * (j 2).val = win0_2.index t (2 : Fin 3) * 512 + 1 * (j 2).val
      omega

/-- An index of the result array lies in grid point t's tile iff every coordinate lies in the tile's range. -/
theorem mem_tile (t : Fin cfg0.N) (i : S4x40000x512.Idx) :
    i ∈ ((cfg0.win 2).blk t).view.set ↔ ∀ a : Fin 3, win0_2.index t a * S1x2000x512.size a ≤ (i a).val
      ∧ (i a).val < win0_2.index t a * S1x2000x512.size a + S1x2000x512.size a := by
  show i ∈ ((View.whole main_v13).slice (win0_2.rect t)).set ↔ _
  rw [View.set_slice_whole, Rect.mem_set_unit]
  exact Iff.rfl

/-- The tiles cover the result array: (l, r, h) lies in the tile of edge type l and tile number r / 2000. -/
theorem covered (i : S4x40000x512.Idx) :
    ∃ t : Fin cfg0.N, (cfg0.win 2).flush t = true ∧ i ∈ ((cfg0.win 2).blk t).view.set := by
  have hi0 : (i 0).val < 4 := (i 0).isLt
  have hi1 : (i 1).val < 40000 := (i 1).isLt
  have hi2 : (i 2).val < 512 := (i 2).isLt
  obtain ⟨t, ht⟩ := tiles_onto ⟨(i 0).val, hi0⟩ ⟨(i 1).val / 2000, by omega⟩
  have q0 : win0_2.index t (0 : Fin 3) = (i 0).val := congrFun ht 0
  have q1 : win0_2.index t (1 : Fin 3) = (i 1).val / 2000 := congrFun ht 1
  have q2 : win0_2.index t (2 : Fin 3) = 0 := congrFun ht 2
  refine ⟨t, flush0_2 t, ?_⟩
  rw [mem_tile]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 2000 ≤ (i 1).val ∧ (i 1).val < win0_2.index t (1 : Fin 3) * 2000 + 2000
    omega
  | ⟨2, _⟩ =>
    show win0_2.index t (2 : Fin 3) * 512 ≤ (i 2).val ∧ (i 2).val < win0_2.index t (2 : Fin 3) * 512 + 512
    omega

/-- THE RESULT ARRAY AFTER THE REGION is the reference's array of messages. -/
theorem final (c : Dev nD) : (dats m 0 c).arrAt 2 cfg0.N = msgs m c :=
  (dats m 0 c).arrAt_eq_of_cover 2 (msgs m c) (fun t _ => flushed_eq m c t) (covered)

end Cert.KernelIdeal.Messages

end
-- ==== Proof.Result.lean ====
/-
  The whole program's result. After the region the host flattens the messages to [160000, 512] and the target indices
  to [160000], adds every message row into its target node's row of a zero [50000, 512] array (an index outside the
  array adds nothing), and cuts the sums at zero. The reference ends with the same lines over the same target
  indices, so once the region's result array is the reference's array of messages the two programs' results are
  one term.
-/
import proofs.«174354_j7507602833984_2_alg».proof.Proof.Messages

noncomputable section

namespace Cert.KernelIdeal.Result

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The lines after the region as ONE function of the target indices [4, 40000] and the messages [4, 40000, 512]:
    flatten both, scatter-add the message rows into zeros at their targets, cut at zero. -/
def finish (T : (⟨S4x40000, .i32⟩ : BufTy).Contents (Elt Ideal)) (M : (⟨S4x40000x512, .f32⟩ : BufTy).Contents (Elt Ideal)) :
    (⟨S50000x512, .f32⟩ : BufTy).Contents (Elt Ideal) :=
  maximumf
    (Host.scatterAdd scatter_S50000x512_S160000x1_S160000x512_1_0_0_1
      (broadcastInDim S50000x512 ![] bcast_S_S50000x512 (constant (F := Ideal) S_ .f32 0x00000000#32))
      (broadcastInDim S160000x1 ![0] bcast_S160000_S160000x1_0 (shapeCast S160000 T shapeCasts_S4x40000_S160000))
      (shapeCast S160000x512 M shapeCasts_S4x40000x512_S160000x512))
    (broadcastInDim S50000x512 ![] bcast_S_S50000x512 (constant (F := Ideal) S_ .f32 0x00000000#32))

/-- The buffers as the region leaves them: its arrays at what the grid wrote, every other one as the region found it. -/
abbrev left (c : Dev nD) : Valuation τ sig (Elt Ideal) :=
  Pipeline.withArrays cfg0.spec c (V0 m c) fun w => (dats m 0 c).arrAt w cfg0.N

/-- @main's result is `finish` of the target-index buffer and the region's result array as the region leaves them. -/
theorem tail_reads (c : Dev nD) :
    Pipeline.afterTail₀ cfgs (dats m) 0 (V0 m) [hostOps1, hostOps1_1] c main_v19
      = finish (left m c (Proc.devRef .tc main_v3)) (left m c (Proc.devRef .tc main_v13)) := by
  unfold Pipeline.afterTail₀
  simp only [hostOps1, hostOps1_1, List.flatten_cons, List.flatten_nil, List.append_nil, List.cons_append, List.nil_append]
  after_results
  rfl

/-- The region's result array, as left, is the reference's array of messages. -/
theorem left_messages (c : Dev nD) : left m c (Proc.devRef .tc main_v13) = Messages.msgs m c :=
  (Pipeline.withArrays_arr spec0 launch0.win.arr_inj c _ _ 2).trans (Messages.final m c)

/-- The target-index buffer is no array of the region: it is left as the lines before the region wrote it. -/
theorem left_targets (c : Dev nD) :
    left m c (Proc.devRef .tc main_v3)
      = Cert.ReferenceIdeal.Read.val_main_v3 (F := Ideal) (m ((c : Thread nD τ).loc main_arg1)) :=
  (Pipeline.withArrays_of_ne _ c (V0 m c) _ main_v3 (by exact (by decide : ∀ w, Pipeline.arrRef spec0 w ≠ main_v3))).trans
    (Found.targets m c)

/-- The reference's last lines are the same function of its own target indices and messages. -/
theorem finish_reference (x0 : (⟨S50000x512, .f32⟩ : BufTy).Contents (Elt Ideal)) (x1 : (⟨S4x40000x2, .i32⟩ : BufTy).Contents (Elt Ideal))
    (x2 : (⟨S4x512x512, .f32⟩ : BufTy).Contents (Elt Ideal)) :
    finish (Cert.ReferenceIdeal.Read.val_main_v3 (F := Ideal) x1) (Cert.ReferenceIdeal.Read.val_main_v11 (F := Ideal) x0 x1 x2)
      = Cert.ReferenceIdeal.Read.val_main_v17 (F := Ideal) x0 x1 x2 := rfl

/-- @MAIN'S RESULT is the reference's result term of the three arguments. -/
theorem result_eq (c : Dev nD) :
    Pipeline.afterTail₀ cfgs (dats m) 0 (V0 m) [hostOps1, hostOps1_1] c main_v19
      = Cert.ReferenceIdeal.Read.val_main_v17 (F := Ideal) (m ((c : Thread nD τ).loc main_arg0))
          (m ((c : Thread nD τ).loc main_arg1)) (m ((c : Thread nD τ).loc main_arg2)) := by
  rw [tail_reads, left_messages, left_targets]
  exact finish_reference _ _ _

/-- THE RUN, READ: every weakly fair execution of the idealized kernel program ends with its result at the
    reference's term of the arguments, and the arguments unchanged. -/
theorem run : θ_run defs (onTc (τ := τ) (main (F := Ideal))) ⟨m, fun _ => 0, ρ⟩ fun r => ∀ c : Dev nD,
      r.2.mem ((c : Thread nD τ).loc main_v19)
        = Cert.ReferenceIdeal.Read.val_main_v17 (F := Ideal) (m ((c : Thread nD τ).loc main_arg0))
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v19 (Pipeline.mem_restRefs_of main_v19 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.Result

end
-- ==== Proof.lean ====
/-
  A message-passing layer over a typed graph: for each of 4 edge types and each of its 40000 edges, the source
  node's 512-entry embedding row is gathered, multiplied by that edge type's 512 × 512 weight matrix, and the
  resulting message row is added into the target node's row of a [50000, 512] array, which is finally cut at zero.

  The kernel program gathers the rows on the host, forms the messages on a 4 × 20 grid — grid point (l, e) multiplies
  rows 2000·e … 2000·e + 1999 of edge type l's gathered rows with edge type l's weights — and scatters and cuts on the
  host. The reference forms the messages by one batched contraction. Over the extended reals the narrower float format
  the kernel program converts to is the identity, a product accumulated into zero is the product, and each message
  entry is on both sides the sum over k of gathered row entry (l, r, k) times weight entry (l, k, h); the tiles cover
  the message array, and the lines after it are the same on both sides. So the two results are one term of the three
  arguments (Result.lean, over Messages.lean, Tile.lean and Found.lean). No law that needs finite operands is used.

  The three frames are the generated ones (the reference's is its generated run with the result dropped). The
  idealized kernel program is the kernel program's own text read over the extended reals, so the claim that it is
  its idealization has nothing to state.
-/
import proofs.«174354_j7507602833984_2_alg».proof.Defs
import proofs.«174354_j7507602833984_2_alg».proof.Proof.Gen.Kernel
import proofs.«174354_j7507602833984_2_alg».proof.Proof.Gen.Kernel.Skeleton
import proofs.«174354_j7507602833984_2_alg».proof.Proof.Gen.Kernel.Launch
import proofs.«174354_j7507602833984_2_alg».proof.Proof.Gen.Kernel.Points
import proofs.«174354_j7507602833984_2_alg».proof.Proof.Gen.Kernel.Frame
import proofs.«174354_j7507602833984_2_alg».proof.Proof.Gen.KernelIdeal
import proofs.«174354_j7507602833984_2_alg».proof.Proof.Gen.KernelIdeal.Skeleton
import proofs.«174354_j7507602833984_2_alg».proof.Proof.Gen.KernelIdeal.Launch
import proofs.«174354_j7507602833984_2_alg».proof.Proof.Gen.KernelIdeal.Points
import proofs.«174354_j7507602833984_2_alg».proof.Proof.Gen.KernelIdeal.Frame
import proofs.«174354_j7507602833984_2_alg».proof.Proof.Gen.ReferenceIdeal
import proofs.«174354_j7507602833984_2_alg».proof.Proof.Gen.ReferenceIdeal.Run
import proofs.«174354_j7507602833984_2_alg».proof.Proof.Gen.ReferenceIdeal.Read
import proofs.«174354_j7507602833984_2_alg».proof.Proof.Gen.Pre_finite_inputs
import proofs.«174354_j7507602833984_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

/-- Both idealized programs end with their result at the reference's term of the argument arrays, which agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
